-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x6x8x8 : Shape := ⟨5, ![512, 256, 6, 8, 8]⟩
abbrev S256x256 : Shape := ⟨2, ![256, 256]⟩
abbrev S1x256x6x8x8 : Shape := ⟨5, ![1, 256, 6, 8, 8]⟩
abbrev S_ : Shape := ⟨0, ![]⟩

class Facts : Prop where
  bcast_S_S512x256x6x8x8 : S_.BroadcastsInDim S512x256x6x8x8 (![] : Fin 0 → Fin S512x256x6x8x8.rank)
  reducesTo_S512x256x6x8x8_S_d0_1_2_3_4 : S512x256x6x8x8.ReducesTo [0, 1, 2, 3, 4] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256x6x8x8 : S_.BroadcastsInDim S1x256x6x8x8 (![] : Fin 0 → Fin S1x256x6x8x8.rank)
  reducesTo_S1x256x6x8x8_S_d0_1_2_3_4 : S1x256x6x8x8.ReducesTo [0, 1, 2, 3, 4] S_

variable [Facts]

def fn {F : FTy → Type} [FloatOps F] (main_arg0 : FVec F S512x256x6x8x8 .f32) (main_arg1 : FVec F S256x256 .f32) (main_arg2 : FVec F S1x256x6x8x8 .f32) : IVec S_ 1 :=
  let main_v0 : FVec F S512x256x6x8x8 .f32 := Host.absf main_arg0
  let main_cst : FVec F S_ .f32 := constant S_ .f32 0x7F800000#32
  let main_v1 : FVec F S512x256x6x8x8 .f32 := broadcastInDim S512x256x6x8x8 ![] bcast_S_S512x256x6x8x8 main_cst
  let main_v2 : IVec S512x256x6x8x8 1 := cmpf .olt main_v0 main_v1
  let main_c : IVec S_ 1 := constantI S_ 1 1#1
  let main_v3 : IVec S_ 1 := (fun x v => Host.reduce IntOp.andi x v reducesTo_S512x256x6x8x8_S_d0_1_2_3_4 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256x6x8x8 .f32 := Host.absf main_arg2
  let main_cst_2 : FVec F S_ .f32 := constant S_ .f32 0x7F800000#32
  let main_v10 : FVec F S1x256x6x8x8 .f32 := broadcastInDim S1x256x6x8x8 ![] bcast_S_S1x256x6x8x8 main_cst_2
  let main_v11 : IVec S1x256x6x8x8 1 := cmpf .olt main_v9 main_v10
  let main_c_3 : IVec S_ 1 := constantI S_ 1 1#1
  let main_v12 : IVec S_ 1 := (fun x v => Host.reduce IntOp.andi x v reducesTo_S1x256x6x8x8_S_d0_1_2_3_4 h_S_) main_v11 main_c_3
  let main_v13 : IVec S_ 1 := andi main_v8 main_v12
  main_v13
-- ==== Kernel.lean ====
abbrev S512x256x6x8x8 : Shape := ⟨5, ![512, 256, 6, 8, 8]⟩
abbrev S256x256 : Shape := ⟨2, ![256, 256]⟩
abbrev S1x256x6x8x8 : Shape := ⟨5, ![1, 256, 6, 8, 8]⟩
abbrev S512x256x384 : Shape := ⟨3, ![512, 256, 384]⟩
abbrev S1x256x384 : Shape := ⟨3, ![1, 256, 384]⟩
abbrev S32x256x384 : Shape := ⟨3, ![32, 256, 384]⟩
abbrev S256x384 : Shape := ⟨2, ![256, 384]⟩
abbrev S256 : Shape := ⟨1, ![256]⟩
abbrev S1x256 : Shape := ⟨2, ![1, 256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S512x256x6x8x8, .f32⟩
  | .hbm, ⟨1, _⟩ => ⟨S256x256, .f32⟩
  | .hbm, ⟨2, _⟩ => ⟨S1x256x6x8x8, .f32⟩
  | .hbm, ⟨3, _⟩ => ⟨S512x256x384, .f32⟩
  | .hbm, ⟨4, _⟩ => ⟨S1x256x384, .f32⟩
  | .hbm, ⟨5, _⟩ => ⟨S512x256x384, .f32⟩
  | .hbm, ⟨6, _⟩ => ⟨S512x256x6x8x8, .f32⟩
  | .local _ .vmem, ⟨0, _⟩ => ⟨S32x256x384, .f32⟩
  | .local _ .vmem, ⟨1, _⟩ => ⟨S32x256x384, .f32⟩
  | .local _ .vmem, ⟨2, _⟩ => ⟨S256x256, .f32⟩
  | .local _ .vmem, ⟨3, _⟩ => ⟨S1x256x384, .f32⟩
  | .local _ .vmem, ⟨4, _⟩ => ⟨S32x256x384, .f32⟩
  | .local _ .vmem, ⟨5, _⟩ => ⟨S32x256x384, .f32⟩
  | _, _ => ⟨S512x256x6x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (k0_t1 : Fin k0_t1_loop.trips) : Fin 3 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v4 : BitVec 32 := Scalar.muli arg5 c1_i32_5
  let v5 : BitVec 32 := Scalar.addi c0_i32_6 v4
  let v6 : Index := Scalar.indexCast v5
  let c0_7 : Index := 0#32
  let c0_8 : Index := 0#32
  ![v6.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x256x6x8x8_S512x256x384 : S512x256x6x8x8.ShapeCasts S512x256x384
  shapeCasts_S1x256x6x8x8_S1x256x384 : S1x256x6x8x8.ShapeCasts S1x256x384
  inb_S256x256_S256x256_0_0 : ∀ a, (![0, 0] : Fin 2 → Nat) a + S256x256.size a ≤ S256x256.size a
  h_S256x256 : 0 < S256x256.numel
  inb_S1x256x384_S1x256x384_0_0_0 : ∀ a, (![0, 0, 0] : Fin 3 → Nat) a + S1x256x384.size a ≤ S1x256x384.size a
  h_S1x256x384 : 0 < S1x256x384.numel
  shapeCasts_S1x256x384_S256x384 : S1x256x384.ShapeCasts S256x384
  reduces_S256x384_S256 : S256x384.Reduces [1] S256
  shapeCasts_S256_S1x256 : S256.ShapeCasts S1x256
  shapeCasts_S256_S256x1 : S256.ShapeCasts S256x1
  broadcasts_S1x256_S256x256 : S1x256.Broadcasts S256x256
  broadcasts_S256x1_S256x256 : S256x1.Broadcasts S256x256
  shapeCasts_S256x384_S1x256x384 : S256x384.ShapeCasts S1x256x384
  shapeCasts_S512x256x384_S512x256x6x8x8 : S512x256x384.ShapeCasts S512x256x6x8x8
  dot_S256x256_S256x384_S256x384_1_0_0_1_n_n_wf : DotDims.WF S256x256 S256x384 S256x384 [1] [0] [0] [1] [] []
  hrank0 : 0 < grid0.rank
  k0_t1_ok : k0_t1_loop.OK
  k0_off1_inb : ∀ k0_t1 : Fin k0_t1_loop.trips, ∀ a, (k0_off1 k0_t1) a + S1x256x384.size a ≤ S32x256x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x384.size a ≤ S512x256x384.size a
  hwx0_0 : ∀ i : grid0.Coords, EltTy.bits .f32 = 32 ∨ (Rect.block (s := S512x256x384) S32x256x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x384.size a ≤ S1x256x384.size a
  hwx0_2 : ∀ i : grid0.Coords, EltTy.bits .f32 = 32 ∨ (Rect.block (s := S1x256x384) S1x256x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256x384.size a ≤ S512x256x384.size a
  hwx0_3 : ∀ i : grid0.Coords, EltTy.bits .f32 = 32 ∨ (Rect.block (s := S512x256x384) S32x256x384.size (cc0_transform_3 i) (hinb0_3 i)).WholeWords (EltTy.packing .f32)

variable [Facts₀]

def dot_S256x256_S256x384_S256x384_1_0_0_1_n_n : DotDims S256x256 S256x384 S256x384 where
  lhsContracting := [1]
  rhsContracting := [0]
  lhsNonContracting := [0]
  rhsNonContracting := [1]
  lhsBatch := []
  rhsBatch := []
  wf := dot_S256x256_S256x384_S256x384_1_0_0_1_n_n_wf

abbrev win0_0 : Pipeline.Window sig grid0 :=
  Pipeline.Window.ofSpec (Memref.whole main_v0) S32x256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x256x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x256x6x8x8 : Shape := ⟨5, ![512, 256, 6, 8, 8]⟩
abbrev S256x256 : Shape := ⟨2, ![256, 256]⟩
abbrev S1x256x6x8x8 : Shape := ⟨5, ![1, 256, 6, 8, 8]⟩
abbrev S512x256x384 : Shape := ⟨3, ![512, 256, 384]⟩
abbrev S_ : Shape := ⟨0, ![]⟩
abbrev S512x256 : Shape := ⟨2, ![512, 256]⟩
abbrev S512x1x256 : Shape := ⟨3, ![512, 1, 256]⟩
abbrev S512x256x1 : Shape := ⟨3, ![512, 256, 1]⟩
abbrev S512x256x256 : Shape := ⟨3, ![512, 256, 256]⟩
abbrev S1x256x256 : Shape := ⟨3, ![1, 256, 256]⟩

abbrev nBuf : Space → Nat
  | .hbm => 48
  | .vmem => 0
  | .smem => 0
  | _ => 0

abbrev bufTy : (tb : Table) → Fin (tcTables nBuf tb) → BufTy
  | .hbm, ⟨0, _⟩ => ⟨S512x256x6x8x8, .f32⟩
  | .hbm, ⟨1, _⟩ => ⟨S256x256, .f32⟩
  | .hbm, ⟨2, _⟩ => ⟨S1x256x6x8x8, .f32⟩
  | .hbm, ⟨3, _⟩ => ⟨S512x256x384, .f32⟩
  | .hbm, ⟨4, _⟩ => ⟨S_, .f32⟩
  | .hbm, ⟨5, _⟩ => ⟨S512x256, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S512x1x256, .f32⟩
  | .hbm, ⟨10, _⟩ => ⟨S512x256x1, .f32⟩
  | .hbm, ⟨11, _⟩ => ⟨S512x256x256, .f32⟩
  | .hbm, ⟨12, _⟩ => ⟨S512x256x256, .f32⟩
  | .hbm, ⟨13, _⟩ => ⟨S512x256x256, .f32⟩
  | .hbm, ⟨14, _⟩ => ⟨S512x256x256, .f32⟩
  | .hbm, ⟨15, _⟩ => ⟨S512x256x256, .f32⟩
  | .hbm, ⟨16, _⟩ => ⟨S_, .f32⟩
  | .hbm, ⟨17, _⟩ => ⟨S512x256x256, .f32⟩
  | .hbm, ⟨18, _⟩ => ⟨S512x256x256, .f32⟩
  | .hbm, ⟨19, _⟩ => ⟨S_, .f32⟩
  | .hbm, ⟨20, _⟩ => ⟨S512x256x256, .f32⟩
  | .hbm, ⟨21, _⟩ => ⟨S512x256x256, .f32⟩
  | .hbm, ⟨22, _⟩ => ⟨S_, .f32⟩
  | .hbm, ⟨23, _⟩ => ⟨S512x256x256, .f32⟩
  | .hbm, ⟨24, _⟩ => ⟨S512x256x256, .f32⟩
  | .hbm, ⟨25, _⟩ => ⟨S512x256x256, .f32⟩
  | .hbm, ⟨26, _⟩ => ⟨S_, .f32⟩
  | .hbm, ⟨27, _⟩ => ⟨S512x256x256, .f32⟩
  | .hbm, ⟨28, _⟩ => ⟨S512x256x256, .f32⟩
  | .hbm, ⟨29, _⟩ => ⟨S512x256x256, .f32⟩
  | .hbm, ⟨30, _⟩ => ⟨S_, .f32⟩
  | .hbm, ⟨31, _⟩ => ⟨S512x256x256, .f32⟩
  | .hbm, ⟨32, _⟩ => ⟨S512x256x256, .f32⟩
  | .hbm, ⟨33, _⟩ => ⟨S512x256x256, .f32⟩
  | .hbm, ⟨34, _⟩ => ⟨S512x256x256, .f32⟩
  | .hbm, ⟨35, _⟩ => ⟨S_, .f32⟩
  | .hbm, ⟨36, _⟩ => ⟨S512x256x256, .f32⟩
  | .hbm, ⟨37, _⟩ => ⟨S512x256x256, .f32⟩
  | .hbm, ⟨38, _⟩ => ⟨S1x256x256, .f32⟩
  | .hbm, ⟨39, _⟩ => ⟨S512x256x256, .f32⟩
  | .hbm, ⟨40, _⟩ => ⟨S512x256x256, .f32⟩
  | .hbm, ⟨41, _⟩ => ⟨S512x256x384, .f32⟩
  | .hbm, ⟨42, _⟩ => ⟨S512x256x6x8x8, .f32⟩
  | .hbm, ⟨43, _⟩ => ⟨S512x256x6x8x8, .f32⟩
  | .hbm, ⟨44, _⟩ => ⟨S512x256x6x8x8, .f32⟩
  | .hbm, ⟨45, _⟩ => ⟨S_, .f32⟩
  | .hbm, ⟨46, _⟩ => ⟨S512x256x6x8x8, .f32⟩
  | .hbm, ⟨47, _⟩ => ⟨S512x256x6x8x8, .f32⟩
  | _, _ => ⟨S512x256x6x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  shapeCasts_S512x256x6x8x8_S512x256x384 : S512x256x6x8x8.ShapeCasts S512x256x384
  reducesTo_S512x256x6x8x8_S512x256_d2_3_4 : S512x256x6x8x8.ReducesTo [2, 3, 4] S512x256
  h_S_ : 0 < S_.numel
  bcast_S_S512x256 : S_.BroadcastsInDim S512x256 (![] : Fin 0 → Fin S512x256.rank)
  bcast_S512x256_S512x1x256_0_2 : S512x256.BroadcastsInDim S512x1x256 (![0, 2] : Fin 2 → Fin S512x1x256.rank)
  bcast_S512x256_S512x256x1_0_1 : S512x256.BroadcastsInDim S512x256x1 (![0, 1] : Fin 2 → Fin S512x256x1.rank)
  bcast_S512x1x256_S512x256x256_0_1_2 : S512x1x256.BroadcastsInDim S512x256x256 (![0, 1, 2] : Fin 3 → Fin S512x256x256.rank)
  bcast_S512x256x1_S512x256x256_0_1_2 : S512x256x1.BroadcastsInDim S512x256x256 (![0, 1, 2] : Fin 3 → Fin S512x256x256.rank)
  bcast_S_S512x256x256 : S_.BroadcastsInDim S512x256x256 (![] : Fin 0 → Fin S512x256x256.rank)
  transposes_S512x256x256_S512x256x256_0_2_1 : S512x256x256.Transposes [0, 2, 1] S512x256x256
  bcast_S256x256_S1x256x256_1_2 : S256x256.BroadcastsInDim S1x256x256 (![1, 2] : Fin 2 → Fin S1x256x256.rank)
  bcast_S1x256x256_S512x256x256_0_1_2 : S1x256x256.BroadcastsInDim S512x256x256 (![0, 1, 2] : Fin 3 → Fin S512x256x256.rank)
  shapeCasts_S512x256x384_S512x256x6x8x8 : S512x256x384.ShapeCasts S512x256x6x8x8
  bcast_S1x256x6x8x8_S512x256x6x8x8_0_1_2_3_4 : S1x256x6x8x8.BroadcastsInDim S512x256x6x8x8 (![0, 1, 2, 3, 4] : Fin 5 → Fin S512x256x6x8x8.rank)
  bcast_S_S512x256x6x8x8 : S_.BroadcastsInDim S512x256x6x8x8 (![] : Fin 0 → Fin S512x256x6x8x8.rank)
  dot_S512x256x256_S512x256x384_S512x256x384_2_1_1_2_0_0_wf : DotDims.WF S512x256x256 S512x256x384 S512x256x384 [2] [1] [1] [2] [0] [0]

variable [Facts₀]

def dot_S512x256x256_S512x256x384_S512x256x384_2_1_1_2_0_0 : DotDims S512x256x256 S512x256x384 S512x256x384 where
  lhsContracting := [2]
  rhsContracting := [1]
  lhsNonContracting := [1]
  rhsNonContracting := [2]
  lhsBatch := [0]
  rhsBatch := [0]
  wf := dot_S512x256x256_S512x256x384_S512x256x384_2_1_1_2_0_0_wf

class Facts : Prop extends Facts₀ where

variable [Facts]
-- ==== Proof.Spec.lean ====
/-
  The function both programs compute, one batch at a time, on the extended reals.

  For one batch let X be its [256, 384] matrix of features (channel j, position k), A the [256, 256] adjacency and P the
  [256, 384] scale. The mean of channel i is c i = (sum over k of X i k) / 384. The affinity of channels i and j depends
  only on the difference c j - c i: the kernel takes 1 - |tanh ((c j - c i) / 2)|, the reference takes
  s i j = 2 * | |sigma (c j - c i) - 1/2| - 1/2 | and then the mean (s i j + s j i) / 2 of it and its transpose.
  The result at (i, k) is max ((sum over j of (A i j * affinity i j) * X j k) * P i k, 0).

  The float constants stay as their 32-bit words: 0x43C00000 is 384, 0x3F000000 is 1/2, 0x3F800000 is 1,
  0x40000000 is 2 and 0x00000000 is 0.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The words of the constants, as extended reals. -/
abbrev w384 : EReal := Ideal.ofBits .f32 0x43C00000#32
abbrev wHalf : EReal := Ideal.ofBits .f32 0x3F000000#32
abbrev wOne : EReal := Ideal.ofBits .f32 0x3F800000#32
abbrev wTwo : EReal := Ideal.ofBits .f32 0x40000000#32
abbrev wZero : EReal := Ideal.ofBits .f32 0x00000000#32

/-- The mean of row i of a [256, 384] matrix: the sum of the row divided by 384. -/
def rowMean (X : Fin 256 → Fin 384 → EReal) (i : Fin 256) : EReal :=
  Ideal.div (∑ k : Fin 384, X i k) w384

/-- The kernel's affinity of channels i and j: 1 - |tanh ((c j - c i) * 1/2)|, the absolute value as max t (-t). -/
def affK (c : Fin 256 → EReal) (i j : Fin 256) : EReal :=
  wOne - max (Ideal.tanh ((c j - c i) * wHalf)) (-(Ideal.tanh ((c j - c i) * wHalf)))

/-- The reference's unsymmetrized term: | |1 / (1 + exp (-(c j - c i))) - 1/2| - 1/2 | * 2. -/
def sigR (c : Fin 256 → EReal) (i j : Fin 256) : EReal :=
  max (max (Ideal.div wOne (wOne + Ideal.exp (-(c j - c i))) - wHalf) (-(Ideal.div wOne (wOne + Ideal.exp (-(c j - c i))) - wHalf)) - wHalf)
      (-(max (Ideal.div wOne (wOne + Ideal.exp (-(c j - c i))) - wHalf) (-(Ideal.div wOne (wOne + Ideal.exp (-(c j - c i))) - wHalf)) - wHalf))
    * wTwo

/-- The reference's affinity: the mean of the term and its transpose. -/
def affR (c : Fin 256 → EReal) (i j : Fin 256) : EReal :=
  (sigR c i j + sigR c j i) * wHalf

/-- One batch's result at (i, k), for a given affinity. -/
def outOf (aff : Fin 256 → Fin 256 → EReal) (A : Fin 256 → Fin 256 → EReal) (X P : Fin 256 → Fin 384 → EReal)
    (i : Fin 256) (k : Fin 384) : EReal :=
  max ((∑ j : Fin 256, (A i j * aff i j) * X j k) * P i k) wZero

/-! ## The arrays

  The feature array is [512, 256, 6, 8, 8] (batch, channel, then a 6 x 8 x 8 volume) and the scale [1, 256, 6, 8, 8];
  position k < 384 of a channel is the volume's point (k / 64, k / 8 % 8, k % 8), its row-major position. -/

/-- The 5-D index of batch a, channel j, position k. -/
abbrev at5 {n : ℕ} (a : Fin n) (j : Fin 256) (k : Fin 384) : (⟨5, ![n, 256, 6, 8, 8]⟩ : Shape).Idx :=
  ix5 a j (⟨k.val / 64, by omega⟩ : Fin 6) (⟨k.val / 8 % 8, by omega⟩ : Fin 8) (⟨k.val % 8, by omega⟩ : Fin 8)

/-- The position of a 5-D index inside its channel. -/
def pos {n : ℕ} (I : (⟨5, ![n, 256, 6, 8, 8]⟩ : Shape).Idx) : Fin 384 :=
  ⟨(I 2).val * 64 + (I 3).val * 8 + (I 4).val, by
    have h2 : (I 2).val < 6 := (I 2).isLt
    have h3 : (I 3).val < 8 := (I 3).isLt
    have h4 : (I 4).val < 8 := (I 4).isLt
    omega⟩

/-- Batch b of the feature array as a [256, 384] matrix. -/
def Xof (x : (⟨5, ![512, 256, 6, 8, 8]⟩ : Shape).Idx → EReal) (b : Fin 512) (j : Fin 256) (k : Fin 384) : EReal :=
  x (at5 b j k)

/-- The scale as a [256, 384] matrix. -/
def Pof (p : (⟨5, ![1, 256, 6, 8, 8]⟩ : Shape).Idx → EReal) (i : Fin 256) (k : Fin 384) : EReal :=
  p (at5 (0 : Fin 1) i k)

/-- The adjacency by its two coordinates. -/
def Aof (a : (⟨2, ![256, 256]⟩ : Shape).Idx → EReal) (i j : Fin 256) : EReal :=
  a (ix2 i j)

/-- The result array with the kernel's affinity. -/
def GK (x : (⟨5, ![512, 256, 6, 8, 8]⟩ : Shape).Idx → EReal) (a : (⟨2, ![256, 256]⟩ : Shape).Idx → EReal)
    (p : (⟨5, ![1, 256, 6, 8, 8]⟩ : Shape).Idx → EReal) (I : (⟨5, ![512, 256, 6, 8, 8]⟩ : Shape).Idx) : EReal :=
  outOf (affK (rowMean (Xof x (I 0)))) (Aof a) (Xof x (I 0)) (Pof p) (I 1) (pos I)

/-- The result array with the reference's affinity. -/
def GR (x : (⟨5, ![512, 256, 6, 8, 8]⟩ : Shape).Idx → EReal) (a : (⟨2, ![256, 256]⟩ : Shape).Idx → EReal)
    (p : (⟨5, ![1, 256, 6, 8, 8]⟩ : Shape).Idx → EReal) (I : (⟨5, ![512, 256, 6, 8, 8]⟩ : Shape).Idx) : EReal :=
  outOf (affR (rowMean (Xof x (I 0)))) (Aof a) (Xof x (I 0)) (Pof p) (I 1) (pos I)

end Cert.Spec

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KPay.lean ====
/-
  The kernel body's stored value for one batch, read at an index.

  One trip of the body's loop loads the batch's [1, 256, 384] slab X, and with the adjacency A and the scale P (loaded once)
  stores max ((sum over j of (A i j * (1 - |tanh ((c j - c i) / 2)|)) * X j k) * P i k, 0) at (0, i, k), where c i is the
  mean of row i of X: the row sum divided by 384. Stage by stage: the mean, the affinity matrix, the product and the
  final scale and clamp.
-/
import proofs.«161549_j35270271435548_2_alg».proof.Proof.Gen.KernelIdeal.Skeleton
import proofs.«161549_j35270271435548_2_alg».proof.Proof.Spec
import proofs.«161549_j35270271435548_2_alg».proof.Proof.LibColumn
import proofs.«161549_j35270271435548_2_alg».proof.Proof.LibRowReduce
import proofs.«161549_j35270271435548_2_alg».proof.Proof.LibPlainDot
import Idealize.ShloMosaic.Lib.ValueIdx
import Idealize.ShloMosaic.Lib.ValueLayout
import Idealize.ShloMosaic.Lib.Pipeline.Value

noncomputable section

namespace Cert.KernelIdeal.KPay

open Idealize.ShloMosaic Idealize.ShloMosaic.ValueIdx Cert.KernelIdeal Cert.KernelIdeal.Gen Cert.Spec

/-- The slab as a [256, 384] matrix. -/
def slab (v : Vec Ideal S1x256x384 .f32) (j : Fin 256) (k : Fin 384) : EReal := v (ix3 (0 : Fin 1) j k)

/-- The adjacency by coordinates. -/
def adjM (v : Vec Ideal S256x256 .f32) (i j : Fin 256) : EReal := v (ix2 i j)

/-- The vector of row means of the slab. -/
def meanV (v7 : Vec Ideal S1x256x384 .f32) : FVec Ideal S256 .f32 :=
  divf (multiReduction (F := Ideal) .add [1] S256 (shapeCast S256x384 v7 shapeCasts_S1x256x384_S256x384) 0x00000000#32
    reduces_S256x384_S256 (.inl rfl) rfl) (broadcast S256 (Scalar.ofBits (F := Ideal) .f32 0x43C00000#32))

/-- The mean vector at i is the mean of row i of the slab. -/
theorem meanV_apply (v7 : Vec Ideal S1x256x384 .f32) (i : Fin 256) : meanV v7 (ix1 i) = rowMean (slab v7) i := by
  unfold meanV rowMean
  refine congrArg (fun s => Ideal.div s w384) ?_
  refine (Cert.LibRowReduce.rowSum_apply (shapeCast S256x384 v7 shapeCasts_S1x256x384_S256x384) 0x00000000#32
    reduces_S256x384_S256 (.inl rfl) rfl i).trans ?_
  exact Finset.sum_congr rfl fun k _ => shapeCast_1ab_ab_apply v7 shapeCasts_S1x256x384_S256x384 i k

/-- The affinity matrix the body builds from a mean vector c: at (i, j), 1 - |tanh ((c j - c i) * 1/2)|. -/
def affV (c : FVec Ideal S256 .f32) : FVec Ideal S256x256 .f32 :=
  subf (broadcast S256x256 (Scalar.ofBits (F := Ideal) .f32 0x3F800000#32))
    (absf (tanh (mulf
      (subf (broadcastTo S256x256 (shapeCast S1x256 c shapeCasts_S256_S1x256) broadcasts_S1x256_S256x256)
        (broadcastTo S256x256 (shapeCast S256x1 c shapeCasts_S256_S256x1) broadcasts_S256x1_S256x256))
      (broadcast S256x256 (Scalar.ofBits (F := Ideal) .f32 0x3F000000#32)))))

/-- The row of means repeated down the rows reads c j at (i, j). -/
theorem rowOf_apply (c : FVec Ideal S256 .f32) (i j : Fin 256) :
    broadcastTo S256x256 (shapeCast S1x256 c shapeCasts_S256_S1x256) broadcasts_S1x256_S256x256 (ix2 i j) = c (ix1 j) :=
  (broadcastTo_1b_ab_apply (shapeCast S1x256 c shapeCasts_S256_S1x256) broadcasts_S1x256_S256x256 i j).trans
    (shapeCast_a_1a_apply c shapeCasts_S256_S1x256 (0 : Fin 1) j)

/-- The column of means repeated along the columns reads c i at (i, j). -/
theorem colOf_apply (c : FVec Ideal S256 .f32) (i j : Fin 256) :
    broadcastTo S256x256 (shapeCast S256x1 c shapeCasts_S256_S256x1) broadcasts_S256x1_S256x256 (ix2 i j) = c (ix1 i) :=
  (Cert.LibColumn.broadcastTo_a1_ab_apply (shapeCast S256x1 c shapeCasts_S256_S256x1) broadcasts_S256x1_S256x256 i j).trans
    (Cert.LibColumn.shapeCast_a_a1_apply c shapeCasts_S256_S256x1 i (0 : Fin 1))

/-- The affinity matrix at (i, j). -/
theorem affV_apply (c : FVec Ideal S256 .f32) (i j : Fin 256) : affV c (ix2 i j) = affK (fun a => c (ix1 a)) i j := by
  unfold affV affK
  show wOne - max (Ideal.tanh ((_ - _) * wHalf)) (-(Ideal.tanh ((_ - _) * wHalf))) = _
  rw [rowOf_apply c i j, colOf_apply c i j]

/-- The affinity matrix of the slab's means. -/
theorem affV_mean_apply (v7 : Vec Ideal S1x256x384 .f32) (i j : Fin 256) :
    affV (meanV v7) (ix2 i j) = affK (rowMean (slab v7)) i j :=
  (affV_apply (meanV v7) i j).trans (congrArg (fun c => affK c i j) (funext fun a => meanV_apply v7 a))

/-- The stored value at (0, i, k): the product row against the slab's column, scaled and clamped at zero. -/
theorem pay_apply (v0 : Vec Ideal S256x256 .f32) (v1 v7 : Vec Ideal S1x256x384 .f32) (i : Fin 256) (k : Fin 384) :
    k0_pay1 (F := Ideal) v0 v1 v7 (ix3 (0 : Fin 1) i k)
      = outOf (affK (rowMean (slab v7))) (adjM v0) (slab v7) (slab v1) i k := by
  unfold k0_pay1
  refine (shapeCast_ab_1ab_apply _ shapeCasts_S256x384_S1x256x384 (0 : Fin 1) i k).trans ?_
  unfold outOf
  show max (matmul (F := Ideal) dot_S256x256_S256x384_S256x384_1_0_0_1_n_n (some .fp32) (mulf v0 (affV (meanV v7)))
      (shapeCast S256x384 v7 shapeCasts_S1x256x384_S256x384) (constant S256x384 .f32 0x00000000#32) (ix2 i k)
      * shapeCast S256x384 v1 shapeCasts_S1x256x384_S256x384 (ix2 i k)) wZero = _
  refine congrArg (fun s => max s wZero) ?_
  refine congr (congrArg HMul.hMul ?_) (shapeCast_1ab_ab_apply v1 shapeCasts_S1x256x384_S256x384 i k)
  refine (Cert.LibPlainDot.matmul_plain 256 256 384 (some .fp32) (mulf v0 (affV (meanV v7)))
    (shapeCast S256x384 v7 shapeCasts_S1x256x384_S256x384) (ix2 i k)).trans ?_
  refine Finset.sum_congr rfl fun j _ => ?_
  refine congr (congrArg HMul.hMul ?_) (shapeCast_1ab_ab_apply v7 shapeCasts_S1x256x384_S256x384 j k)
  show v0 (ix2 i j) * affV (meanV v7) (ix2 i j) = _
  rw [affV_mean_apply v7 i j]; rfl

end Cert.KernelIdeal.KPay

end
-- ==== Proof.KPieces.lean ====
/-
  What one grid point's body leaves in the output block.

  The body's loop makes 32 trips; trip q loads slab q of the input block, and stores at slab q of the output block the
  value computed from that slab, the adjacency and the scale. So the output block is ONE function of the three loaded
  blocks: at (q, i, k) it is the per-batch result of slab q at (i, k). The trips' stores are read off the run once, each
  store's value is that function on its rectangle, and the stores tile the block.
-/
import proofs.«161549_j35270271435548_2_alg».proof.Proof.Gen.KernelIdeal.Frame
import proofs.«161549_j35270271435548_2_alg».proof.Proof.KPay

set_option maxRecDepth 16384

noncomputable section

namespace Cert.KernelIdeal.KPieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Spec Cert.KernelIdeal.KPay

variable {F : FTy → Type} [FloatOps F]

/-! ## The run's stores, read off once -/

/-- The stores of the whole body are the stores of its 32 trips, over the adjacency and the scale read whole. -/
theorem run_pieces (c : Dev nD) (i : grid0.Coords) (arg1 : Memref sig .tc .vmem S32x256x384 .f32) (harg1 : arg1.IsWhole) (arg2 : Memref sig .tc .vmem S256x256 .f32) (harg2 : arg2.IsWhole) (arg3 : Memref sig .tc .vmem S1x256x384 .f32) (harg3 : arg3.IsWhole) (arg4 : Memref sig .tc .vmem S32x256x384 .f32) (harg4 : arg4.IsWhole)
    (x0 : Vec F S32x256x384 .f32) (x1 : Vec F S256x256 .f32) (x2 : Vec F S1x256x384 .f32) :
    (kernelRun0_A (F := F) c i arg1 harg1 arg2 harg2 arg3 harg3 arg4 harg4 x0 x1 x2).1
      = pb_k0_t1 (F := F) Variants.none c none i arg1 harg1 arg2 harg2 arg3 harg3 arg4 harg4
          (View.readAt (Elt F) arg2.view (Rect.unit (s := S256x256) ![0, 0] S256x256.size inb_S256x256_S256x256_0_0).toLoadRect (harg2.unread x1))
          (View.readAt (Elt F) arg3.view (Rect.unit (s := S1x256x384) ![0, 0, 0] S1x256x384.size inb_S1x256x384_S1x256x384_0_0_0).toLoadRect (harg3.unread x2))
          (harg1.unread x0) k0_t1_loop.trips := by
  unfold kernelRun0_A
  rfl

/-- One trip stores one piece: at the trip's slab, the value computed from the slab loaded there. -/
theorem trip_piece (𝒱 : Variants) (c : Dev nD) (bd : Option 𝒱.V) (i : grid0.Coords) (arg1 : Memref sig .tc .vmem S32x256x384 .f32) (harg1 : arg1.IsWhole) (arg2 : Memref sig .tc .vmem S256x256 .f32) (harg2 : arg2.IsWhole) (arg3 : Memref sig .tc .vmem S1x256x384 .f32) (harg3 : arg3.IsWhole) (arg4 : Memref sig .tc .vmem S32x256x384 .f32) (harg4 : arg4.IsWhole)
    (v0 : Vec F S256x256 .f32) (v1 : Vec F S1x256x384 .f32) (X : BufTy.Contents (Elt F) arg1.view.ty) (k : Fin k0_t1_loop.trips) :
    tripL_k0_t1 (F := F) 𝒱 c bd i arg1 harg1 arg2 harg2 arg3 harg3 arg4 harg4 v0 v1 X k
      = [⟨Rect.unit (s := S32x256x384) (k0_off1 k) S1x256x384.size (k0_off1_inb k),
          k0_pay1 v0 v1 (View.readAt (Elt F) arg1.view (Rect.unit (s := S32x256x384) (k0_off1 k) S1x256x384.size (k0_off1_inb k)).toLoadRect X)⟩] := by
  unfold tripL_k0_t1 trip_k0_t1
  rfl

/-- A whole buffer read through its whole rectangle is its contents: the adjacency. -/
theorem read_adj (arg2 : Memref sig .tc .vmem S256x256 .f32) (harg2 : arg2.IsWhole) (x1 : Vec F S256x256 .f32) :
    View.readAt (Elt F) arg2.view (Rect.unit (s := S256x256) ![0, 0] S256x256.size inb_S256x256_S256x256_0_0).toLoadRect (harg2.unread x1) = x1 := by
  rw [View.readAt_eq_ld, harg2.read_unread]
  exact View.ld_unit_zero (funext fun a => by match a with | ⟨0, _⟩ => rfl | ⟨1, _⟩ => rfl) _ x1

/-- The same for the scale. -/
theorem read_scale (arg3 : Memref sig .tc .vmem S1x256x384 .f32) (harg3 : arg3.IsWhole) (x2 : Vec F S1x256x384 .f32) :
    View.readAt (Elt F) arg3.view (Rect.unit (s := S1x256x384) ![0, 0, 0] S1x256x384.size inb_S1x256x384_S1x256x384_0_0_0).toLoadRect (harg3.unread x2) = x2 := by
  rw [View.readAt_eq_ld, harg3.read_unread]
  exact View.ld_unit_zero (funext fun a => by match a with | ⟨0, _⟩ => rfl | ⟨1, _⟩ => rfl | ⟨2, _⟩ => rfl) _ x2

/-! ## The block as one function -/

/-- The output block as a function of the three loaded blocks: at (q, i, k), the per-batch result of slab q. -/
def blockG (x0 : Vec Ideal S32x256x384 .f32) (x1 : Vec Ideal S256x256 .f32) (x2 : Vec Ideal S1x256x384 .f32)
    (y : S32x256x384.Idx) : EReal :=
  outOf (affK (rowMean (fun j k => x0 (ix3 (y 0) j k)))) (adjM x1) (fun j k => x0 (ix3 (y 0) j k)) (slab x2) (y 1) (y 2)

/-- A trip's stored value is the block function on the trip's rectangle. -/
theorem piece_val (arg1 : Memref sig .tc .vmem S32x256x384 .f32) (harg1 : arg1.IsWhole)
    (x0 : Vec Ideal S32x256x384 .f32) (v0 : Vec Ideal S256x256 .f32) (v1 : Vec Ideal S1x256x384 .f32)
    (k : Fin k0_t1_loop.trips) (x : S1x256x384.Idx) :
    k0_pay1 (F := Ideal) v0 v1 (View.readAt (Elt Ideal) arg1.view
        (Rect.unit (s := S32x256x384) (k0_off1 k) S1x256x384.size (k0_off1_inb k)).toLoadRect (harg1.unread x0)) x
      = blockG x0 v0 v1 ((Rect.unit (s := S32x256x384) (k0_off1 k) S1x256x384.size (k0_off1_inb k)).emb x) := by
  obtain ⟨u, i, kk, rfl⟩ : ∃ (u : Fin 1) (i : Fin 256) (kk : Fin 384), x = ix3 u i kk := ⟨x 0, x 1, x 2, eq_ix3 x⟩
  obtain rfl : u = 0 := Subsingleton.elim _ _
  refine (pay_apply v0 v1 _ i kk).trans ?_
  have h1 : k0_off1 k 1 = 0 := by rw [k0_off1_eq k]; rfl
  have h2 : k0_off1 k 2 = 0 := by rw [k0_off1_eq k]; rfl
  have hs : slab (View.readAt (Elt Ideal) arg1.view
        (Rect.unit (s := S32x256x384) (k0_off1 k) S1x256x384.size (k0_off1_inb k)).toLoadRect (harg1.unread x0))
      = fun j k' => x0 (ix3 ((Rect.unit (s := S32x256x384) (k0_off1 k) S1x256x384.size (k0_off1_inb k)).emb (ix3 (0 : Fin 1) i kk) 0) j k') := by
    funext j k'
    unfold slab
    rw [View.readAt_eq_ld, harg1.read_unread]
    show x0 ((Rect.unit (s := S32x256x384) (k0_off1 k) S1x256x384.size (k0_off1_inb k)).idx (ix3 (0 : Fin 1) j k')) = _
    refine congrArg x0 (funext fun a => Fin.ext ?_)
    match a with
    | ⟨0, _⟩ => rfl
    | ⟨1, _⟩ => show k0_off1 k 1 + 1 * j.val = j.val; omega
    | ⟨2, _⟩ => show k0_off1 k 2 + 1 * k'.val = k'.val; omega
  have hi : (Rect.unit (s := S32x256x384) (k0_off1 k) S1x256x384.size (k0_off1_inb k)).emb (ix3 (0 : Fin 1) i kk) 1 = i :=
    Fin.ext (by show k0_off1 k 1 + 1 * i.val = i.val; omega)
  have hk : (Rect.unit (s := S32x256x384) (k0_off1 k) S1x256x384.size (k0_off1_inb k)).emb (ix3 (0 : Fin 1) i kk) 2 = kk :=
    Fin.ext (by show k0_off1 k 2 + 1 * kk.val = kk.val; omega)
  unfold blockG
  rw [hs, hi, hk]

/-- Every store of the first n trips is the block function on its rectangle. -/
theorem pieces_ok (c : Dev nD) (i : grid0.Coords) (arg1 : Memref sig .tc .vmem S32x256x384 .f32) (harg1 : arg1.IsWhole) (arg2 : Memref sig .tc .vmem S256x256 .f32) (harg2 : arg2.IsWhole) (arg3 : Memref sig .tc .vmem S1x256x384 .f32) (harg3 : arg3.IsWhole) (arg4 : Memref sig .tc .vmem S32x256x384 .f32) (harg4 : arg4.IsWhole)
    (x0 : Vec Ideal S32x256x384 .f32) (v0 : Vec Ideal S256x256 .f32) (v1 : Vec Ideal S1x256x384 .f32) :
    ∀ n, n ≤ k0_t1_loop.trips →
      ∀ p ∈ pb_k0_t1 (F := Ideal) Variants.none c none i arg1 harg1 arg2 harg2 arg3 harg3 arg4 harg4 v0 v1 (harg1.unread x0) n,
        ∀ x : p.1.shape.Idx, p.2 x = blockG x0 v0 v1 (p.1.emb x)
  | 0, _ => by
    intro p hp
    rw [pb_k0_t1.eq_1] at hp
    exact absurd hp List.not_mem_nil
  | n + 1, h => by
    intro p hp x
    have hs := pb_k0_t1_succ (F := Ideal) Variants.none c none i arg1 harg1 arg2 harg2 arg3 harg3 arg4 harg4 v0 v1 (harg1.unread x0) ⟨n, h⟩
    rw [show (⟨n, h⟩ : Fin k0_t1_loop.trips).val + 1 = n + 1 from rfl, trip_piece] at hs
    rw [hs] at hp
    rcases List.mem_append.mp hp with hp | hp
    · obtain rfl := List.mem_singleton.mp hp
      exact piece_val arg1 harg1 x0 v0 v1 ⟨n, h⟩ x
    · exact pieces_ok c i arg1 harg1 arg2 harg2 arg3 harg3 arg4 harg4 x0 v0 v1 n (Nat.le_of_succ_le h) p hp x

/-- The output block after the body is the block function of the three loaded blocks. -/
theorem out_eq (c : Dev nD) (i : grid0.Coords) (arg1 : Memref sig .tc .vmem S32x256x384 .f32) (harg1 : arg1.IsWhole) (arg2 : Memref sig .tc .vmem S256x256 .f32) (harg2 : arg2.IsWhole) (arg3 : Memref sig .tc .vmem S1x256x384 .f32) (harg3 : arg3.IsWhole) (arg4 : Memref sig .tc .vmem S32x256x384 .f32) (harg4 : arg4.IsWhole)
    (x0 : Vec Ideal S32x256x384 .f32) (x1 : Vec Ideal S256x256 .f32) (x2 : Vec Ideal S1x256x384 .f32) :
    out0_A_3 (F := Ideal) c i arg1 harg1 arg2 harg2 arg3 harg3 arg4 harg4 x0 x1 x2 = blockG x0 x1 x2 := by
  unfold out0_A_3
  rw [View.read_writes_eq_canon _ _ _ (cover0_A_3 c i arg1 harg1 arg2 harg2 arg3 harg3 arg4 harg4 x0 x1 x2)]
  funext y
  refine View.canon_apply_of_pieces (blockG x0 x1 x2) _ ?_ y (cover0_A_3 c i arg1 harg1 arg2 harg2 arg3 harg3 arg4 harg4 x0 x1 x2 y)
  rw [run_pieces, read_adj, read_scale]
  exact pieces_ok c i arg1 harg1 arg2 harg2 arg3 harg3 arg4 harg4 x0 x1 x2 k0_t1_loop.trips (Nat.le_refl _)

end Cert.KernelIdeal.KPieces

end
-- ==== Proof.KBlocks.lean ====
/-
  From the blocks to the whole output array.

  The grid has 16 points; point t works on batches 32 t .. 32 t + 31: its input and output blocks are slabs 32 t .. of the
  [512, 256, 384] arrays, while the adjacency and the scale are whole at every point. So what point t writes back is
  block t of ONE function of the arrays the region finds: at (b, i, k), the per-batch result of batch b. The 16 blocks
  tile the output array, so the array ends holding that function.
-/
import proofs.«161549_j35270271435548_2_alg».proof.Proof.KPieces

set_option maxRecDepth 16384

noncomputable section

namespace Cert.KernelIdeal.KBlocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Spec Cert.KernelIdeal.KPay Cert.KernelIdeal.KPieces

variable (m : (ℓ : Loc nD τ sig) → Buf (Elt Ideal) ℓ)

/-- The output array as a function of the feature array X, the adjacency A and the scale Pm, all as the region finds them:
    at (b, i, k), the per-batch result of batch b at (i, k). -/
def arrG (X : S512x256x384.Idx → EReal) (A : S256x256.Idx → EReal) (Pm : S1x256x384.Idx → EReal) (z : S512x256x384.Idx) : EReal :=
  outOf (affK (rowMean (fun j k => X (ix3 (z 0) j k)))) (adjM A) (fun j k => X (ix3 (z 0) j k)) (slab Pm) (z 1) (z 2)

/-- The index maps over the grid: the feature and output windows are at block (t, 0, 0), the other two at block 0. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0 :=
  (by decide +kernel : ∀ t : Fin grid0.N, _)

/-- What point t writes back is block t of the function of the arrays. -/
theorem flushed_eq (c : Dev nD) (t : Fin cfg0.N) :
    (dats m 0 c).flushed 3 t
      = ((cfg0.win 3).blk t).view.read (Elt Ideal) (arrG (V m c main_v0) (V m c main_arg1) (V m c main_v1)) := by
  show (cfg0.win 3).cut (grid0.coords t) ((dats m 0 c).after 3 t) = _
  rw [after0_3]
  unfold outsAt0
  rw [out_eq]
  obtain ⟨a0, a1, a2, o0, o1, o2, b0, b1, p0, p1, p2⟩ := idx_facts t
  funext y
  show blockG (iblk m c 0 t) (iblk m c 1 t) (iblk m c 2 t) y
    = arrG (V m c main_v0) (V m c main_arg1) (V m c main_v1) (((cfg0.win 3).blk t).view.emb y)
  unfold blockG arrG
  have hX : (fun (j : Fin 256) (k : Fin 384) => iblk m c 0 t (ix3 (y 0) j k))
      = fun (j : Fin 256) (k : Fin 384) => V m c main_v0 (ix3 ((((cfg0.win 3).blk t).view.emb y) 0) j k) := by
    funext j k
    show V m c main_v0 (((cfg0.win 0).blk t).view.emb (ix3 (y 0) j k)) = _
    refine congrArg (V m c main_v0) (funext fun a => Fin.ext ?_)
    match a with
    | ⟨0, _⟩ => show win0_0.index t (0 : Fin 3) * 32 + 1 * (y 0).val = win0_3.index t (0 : Fin 3) * 32 + 1 * (y 0).val; omega
    | ⟨1, _⟩ => show win0_0.index t (1 : Fin 3) * 256 + 1 * j.val = j.val; omega
    | ⟨2, _⟩ => show win0_0.index t (2 : Fin 3) * 384 + 1 * k.val = k.val; omega
  have hA : adjM (iblk m c 1 t) = adjM (V m c main_arg1) := by
    funext i j
    show V m c main_arg1 (((cfg0.win 1).blk t).view.emb (ix2 i j)) = V m c main_arg1 (ix2 i j)
    refine congrArg (V m c main_arg1) (funext fun a => Fin.ext ?_)
    match a with
    | ⟨0, _⟩ => show win0_1.index t (0 : Fin 2) * 256 + 1 * i.val = i.val; omega
    | ⟨1, _⟩ => show win0_1.index t (1 : Fin 2) * 256 + 1 * j.val = j.val; omega
  have hP : slab (iblk m c 2 t) = slab (V m c main_v1) := by
    funext i k
    show V m c main_v1 (((cfg0.win 2).blk t).view.emb (ix3 (0 : Fin 1) i k)) = V m c main_v1 (ix3 (0 : Fin 1) i k)
    refine congrArg (V m c main_v1) (funext fun a => Fin.ext ?_)
    match a with
    | ⟨0, _⟩ => show win0_2.index t (0 : Fin 3) * 1 + 1 * 0 = 0; omega
    | ⟨1, _⟩ => show win0_2.index t (1 : Fin 3) * 256 + 1 * i.val = i.val; omega
    | ⟨2, _⟩ => show win0_2.index t (2 : Fin 3) * 384 + 1 * k.val = k.val; omega
  have h1 : (((cfg0.win 3).blk t).view.emb y) 1 = y 1 :=
    Fin.ext (by show win0_3.index t (1 : Fin 3) * 256 + 1 * (y 1).val = (y 1).val; omega)
  have h2 : (((cfg0.win 3).blk t).view.emb y) 2 = y 2 :=
    Fin.ext (by show win0_3.index t (2 : Fin 3) * 384 + 1 * (y 2).val = (y 2).val; omega)
  rw [hX, hA, hP, h1, h2]

end Cert.KernelIdeal.KBlocks

end
-- ==== Proof.KCover.lean ====
/-
  The kernel's output array [512, 256, 384] is covered by the 16 blocks [32, 256, 384] its grid points write back.

  Grid point t writes the block whose block index is (t, 0, 0): rows 32 t to 32 t + 31 on the first axis, everything
  on the other two. An index i lies in the block of the point whose block index is ((i 0) / 32, 0, 0); 16 * 32 = 512,
  so every row has such a point, and every point writes its block back.
-/
import proofs.«161549_j35270271435548_2_alg».proof.Proof.Gen.KernelIdeal.Frame

set_option maxRecDepth 16384

noncomputable section

namespace Cert.KernelIdeal.KCover

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- Every block index (q, 0, 0) with q < 16 is the block index of some grid point (decided over the 16 points). -/
theorem blockIndex_onto : ∀ q : Fin 16, ∃ t : Fin cfg0.N, win0_3.index t = ![q.val, 0, 0] :=
  (by decide +kernel : ∀ q : Fin 16, ∃ t : Fin grid0.N, win0_3.index t = ![q.val, 0, 0])

/-- An index of the array is in point t's block iff each coordinate is in the block's range on its axis. -/
theorem mem_block (t : Fin cfg0.N) (i : S512x256x384.Idx) :
    i ∈ ((cfg0.win 3).blk t).view.set ↔ ∀ a : Fin 3, win0_3.index t a * S32x256x384.size a ≤ (i a).val ∧ (i a).val < win0_3.index t a * S32x256x384.size a + S32x256x384.size a := by
  show i ∈ ((View.whole main_v2).slice (win0_3.rect t)).set ↔ _
  rw [View.set_slice_whole, Rect.mem_set_unit]
  exact Iff.rfl

/-- Every index of the output array is in the block of some grid point that writes its block back: the point whose
    block index is ((i 0) / 32, 0, 0). -/
theorem cover3 (i : S512x256x384.Idx) : ∃ t : Fin cfg0.N, (cfg0.win 3).flush t = true ∧ i ∈ ((cfg0.win 3).blk t).view.set := by
  have hi0 : (i 0).val < 512 := (i 0).isLt
  have hi1 : (i 1).val < 256 := (i 1).isLt
  have hi2 : (i 2).val < 384 := (i 2).isLt
  obtain ⟨t, ht⟩ := blockIndex_onto ⟨(i 0).val / 32, by omega⟩
  have q0 : win0_3.index t (0 : Fin 3) = (i 0).val / 32 := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 32 ≤ (i 0).val ∧ (i 0).val < win0_3.index t (0 : Fin 3) * 32 + 32; omega
  | ⟨1, _⟩ => show win0_3.index t (1 : Fin 3) * 256 ≤ (i 1).val ∧ (i 1).val < win0_3.index t (1 : Fin 3) * 256 + 256; omega
  | ⟨2, _⟩ => show win0_3.index t (2 : Fin 3) * 384 ≤ (i 2).val ∧ (i 2).val < win0_3.index t (2 : Fin 3) * 384 + 384; omega

end Cert.KernelIdeal.KCover

end
-- ==== Proof.KHost.lean ====
/- The host operations around the kernel region, read at an index: the two reshapes before it and the reshape after it
   move no value, only the row-major position of an index. -/
import proofs.«161549_j35270271435548_2_alg».proof.Proof.Gen.KernelIdeal.Frame
import proofs.«161549_j35270271435548_2_alg».proof.Proof.Spec
import Idealize.ShloMosaic.Lib.Pipeline.Value

noncomputable section

namespace Cert.KernelIdeal.KHost

open Cert.KernelIdeal Cert.KernelIdeal.Gen Cert.Spec Idealize.ShloMosaic Idealize.ShloMosaic.TcCoe
open Idealize.ShloMosaic.ValueIdx Idealize.SL.Sem Idealize.ShloMosaic.StableHlo

variable (m : (ℓ : Loc nD τ sig) → Buf (Elt Ideal) ℓ) (c : Dev nD)

/-- The features as the region finds them: the argument array reshaped to [512, 256, 384]. -/
theorem V_v0_eq : (V m c main_v0 : S512x256x384.Idx → EReal)
    = shapeCast S512x256x384 (m ((c : Thread nD τ).loc main_arg0)) shapeCasts_S512x256x6x8x8_S512x256x384 := by
  show StableHlo.after hostOps0 (fun b => m (c, b)) (Proc.devRef .tc main_v0) = _
  after_results
  rfl

/-- The scale as the region finds it: the argument array reshaped to [1, 256, 384]. -/
theorem V_v1_eq : (V m c main_v1 : S1x256x384.Idx → EReal)
    = shapeCast S1x256x384 (m ((c : Thread nD τ).loc main_arg2)) shapeCasts_S1x256x6x8x8_S1x256x384 := by
  show StableHlo.after hostOps0 (fun b => m (c, b)) (Proc.devRef .tc main_v1) = _
  after_results
  rfl

/-- The reshaped features at (b, j, k) are the argument array at batch b, channel j, position k. -/
theorem V_v0_apply (b : Fin 512) (j : Fin 256) (k : Fin 384) :
    (V m c main_v0 : S512x256x384.Idx → EReal) (ix3 b j k)
      = (m ((c : Thread nD τ).loc main_arg0) : S512x256x6x8x8.Idx → EReal) (at5 b j k) := by
  rw [V_v0_eq]
  exact shapeCast_apply _ shapeCasts_S512x256x6x8x8_S512x256x384 (ix3 b j k) (at5 b j k) (by
    rewrite [Shape.rowMajor_val_five, Shape.rowMajor_val_three]
    have hb := b.isLt
    have hj := j.isLt
    have hk := k.isLt
    show (((b.val * 256 + j.val) * 6 + k.val / 64) * 8 + k.val / 8 % 8) * 8 + k.val % 8
      = (b.val * 256 + j.val) * 384 + k.val
    omega)

/-- The reshaped scale at (0, i, k) is the argument array at channel i, position k. -/
theorem V_v1_apply (i : Fin 256) (k : Fin 384) :
    (V m c main_v1 : S1x256x384.Idx → EReal) (ix3 (0 : Fin 1) i k)
      = (m ((c : Thread nD τ).loc main_arg2) : S1x256x6x8x8.Idx → EReal) (at5 (0 : Fin 1) i k) := by
  rw [V_v1_eq]
  exact shapeCast_apply _ shapeCasts_S1x256x6x8x8_S1x256x384 (ix3 (0 : Fin 1) i k) (at5 (0 : Fin 1) i k) (by
    rewrite [Shape.rowMajor_val_five, Shape.rowMajor_val_three]
    have hi := i.isLt
    have hk := k.isLt
    show (((0 * 256 + i.val) * 6 + k.val / 64) * 8 + k.val / 8 % 8) * 8 + k.val % 8
      = (0 * 256 + i.val) * 384 + k.val
    omega)

/-- The result after the region: the output array, as the region leaves it, reshaped to [512, 256, 6, 8, 8]. -/
theorem tail_eq : (Pipeline.afterTail₀ cfgs (dats m) 0 (V0 m) [hostOps1] c main_v3 : S512x256x6x8x8.Idx → EReal)
    = shapeCast S512x256x6x8x8 ((dats m 0 c).arrAt 3 cfg0.N : S512x256x384.Idx → EReal)
        shapeCasts_S512x256x384_S512x256x6x8x8 := by
  unfold Pipeline.afterTail₀
  show StableHlo.after hostOps1 _ (Proc.devRef .tc main_v3) = _
  after_results
  have hw := Pipeline.withArrays_arr spec0 launch0.win.arr_inj c (V0 m c) (fun w => (dats m 0 c).arrAt w cfg0.N) 3
  funext i
  exact congrArg (fun y : S512x256x384.Idx → EReal =>
    shapeCast S512x256x6x8x8 y shapeCasts_S512x256x384_S512x256x6x8x8 i) hw

/-- The result at an index is the output array at the index's batch, channel and position. -/
theorem tail_apply (I : S512x256x6x8x8.Idx) :
    (Pipeline.afterTail₀ cfgs (dats m) 0 (V0 m) [hostOps1] c main_v3 : S512x256x6x8x8.Idx → EReal) I
      = ((dats m 0 c).arrAt 3 cfg0.N : S512x256x384.Idx → EReal) (ix3 (I 0) (I 1) (pos I)) := by
  rw [tail_eq]
  exact shapeCast_apply _ shapeCasts_S512x256x384_S512x256x6x8x8 I (ix3 (I 0) (I 1) (pos I)) (by
    rewrite [Shape.rowMajor_val_three, Shape.rowMajor_val_five]
    have h0 : (I 0).val < 512 := (I 0).isLt
    have h1 : (I 1).val < 256 := (I 1).isLt
    have h2 : (I 2).val < 6 := (I 2).isLt
    have h3 : (I 3).val < 8 := (I 3).isLt
    have h4 : (I 4).val < 8 := (I 4).isLt
    show ((I 0).val * 256 + (I 1).val) * 384 + ((I 2).val * 64 + (I 3).val * 8 + (I 4).val)
      = ((((I 0).val * 256 + (I 1).val) * 6 + (I 2).val) * 8 + (I 3).val) * 8 + (I 4).val
    omega)

end Cert.KernelIdeal.KHost

end
-- ==== Proof.KRun.lean ====
/-
  The idealized kernel program's run, with its result named.

  The region leaves the [512, 256, 384] output array holding, at (b, i, k), the per-batch result of batch b at (i, k),
  computed from the reshaped feature array, the adjacency and the reshaped scale. The program then reshapes that array
  to [512, 256, 6, 8, 8]: the entry (b, i, h, w, d) is the entry (b, i, 64 h + 8 w + d) of the output array. Since the
  reshaped inputs read the argument arrays at the same row-major positions, the result is the specification's array
  of the three argument arrays.
-/
import proofs.«161549_j35270271435548_2_alg».proof.Proof.KBlocks
import proofs.«161549_j35270271435548_2_alg».proof.Proof.KCover
import proofs.«161549_j35270271435548_2_alg».proof.Proof.KHost

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Spec Cert.KernelIdeal.KPay Cert.KernelIdeal.KPieces
open Cert.KernelIdeal.KBlocks

variable (m : (ℓ : Loc nD τ sig) → Buf (Elt Ideal) ℓ) (ρ : Dev nD → PrngReg)

/-- The output array after the region: the function of the arrays the region finds. -/
theorem final (c : Dev nD) :
    (dats m 0 c).arrAt 3 cfg0.N = arrG (V m c main_v0) (V m c main_arg1) (V m c main_v1) :=
  (dats m 0 c).arrAt_eq_of_cover 3 _ (fun t _ => flushed_eq m c t) Cert.KernelIdeal.KCover.cover3

/-- The function of the arrays the region finds, at (b, i, position), is the specification's array of the arguments. -/
theorem arrG_eq_GK (c : Dev nD) (I : S512x256x6x8x8.Idx) :
    arrG (V m c main_v0) (V m c main_arg1) (V m c main_v1) (ix3 (I 0) (I 1) (pos I))
      = GK (m ((c : Thread nD τ).loc main_arg0)) (m ((c : Thread nD τ).loc main_arg1)) (m ((c : Thread nD τ).loc main_arg2)) I := by
  unfold arrG GK
  have hX : (fun (j : Fin 256) (k : Fin 384) => V m c main_v0 (ix3 (I 0) j k))
      = Xof (m ((c : Thread nD τ).loc main_arg0)) (I 0) :=
    funext fun j => funext fun k => Cert.KernelIdeal.KHost.V_v0_apply m c (I 0) j k
  have hA : adjM (V m c main_arg1) = Aof (m ((c : Thread nD τ).loc main_arg1)) := by
    rw [V_main_arg1]; rfl
  have hP : slab (V m c main_v1) = Pof (m ((c : Thread nD τ).loc main_arg2)) :=
    funext fun i => funext fun k => Cert.KernelIdeal.KHost.V_v1_apply m c i k
  rw [hX, hA, hP]

/-- The run: every weakly fair execution terminates with the result at the specification's array of the arguments, and the
    arguments unchanged. -/
theorem run : θ_run defs (onTc (τ := τ) (main (F := Ideal))) ⟨m, fun _ => 0, ρ⟩ (fun r => ∀ c : Dev nD,
      r.2.mem ((c.tc : Thread nD τ).loc main_v3)
        = GK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v3 (Pipeline.mem_restRefs_of main_v3 (by decide) (by decide))).trans (funext fun I =>
        (Cert.KernelIdeal.KHost.tail_apply m c I).trans ((congrFun (final m c) _).trans (arrG_eq_GK m c I))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KRun

end
-- ==== Proof.RefRead.lean ====
/- The reference's result read at an index: each host operation of the reference as a function of its operands
   at an index, composed down to the argument arrays. -/
import proofs.«161549_j35270271435548_2_alg».proof.Proof.Gen.ReferenceIdeal.Read
import proofs.«161549_j35270271435548_2_alg».proof.Proof.Spec

noncomputable section

namespace Cert.ReferenceIdeal.RefRead

open Cert.ReferenceIdeal Cert.ReferenceIdeal.Gen Cert.ReferenceIdeal.Read Idealize.ShloMosaic Idealize.ShloMosaic.ValueIdx Cert.Spec

/-- The sum over the three volume axes at (b, i): the indices that drop to (b, i) are the 384 positions of channel i
    of batch b, in row-major order. -/
theorem reduce_at (x : S512x256x6x8x8.Idx → EReal) (init : EReal) (b : Fin 512) (i : Fin 256) :
    Ideal.hostReduceAdd reducesTo_S512x256x6x8x8_S512x256_d2_3_4 x init (ix2 b i)
      = init + ∑ k : Fin 384, x (at5 b i k) := by
  unfold Ideal.hostReduceAdd
  congr 1
  have hd : ∀ I : S512x256x6x8x8.Idx, reducesTo_S512x256x6x8x8_S512x256_d2_3_4.drop I = ix2 b i →
      (I 0).val = b.val ∧ (I 1).val = i.val := fun I hI =>
    ⟨congrArg (fun J : S512x256.Idx => (J 0).val) hI, congrArg (fun J : S512x256.Idx => (J 1).val) hI⟩
  have hl : ∀ I : S512x256x6x8x8.Idx, (I 0).val = b.val → (I 1).val = i.val → at5 b i (pos I) = I := by
    intro I e0 e1
    have h2 : (I 2).val < 6 := (I 2).isLt
    have h3 : (I 3).val < 8 := (I 3).isLt
    have h4 : (I 4).val < 8 := (I 4).isLt
    funext a
    refine Fin.ext ?_
    match a with
    | ⟨0, _⟩ => exact e0.symm
    | ⟨1, _⟩ => exact e1.symm
    | ⟨2, _⟩ => show ((I 2).val * 64 + (I 3).val * 8 + (I 4).val) / 64 = (I 2).val; omega
    | ⟨3, _⟩ => show ((I 2).val * 64 + (I 3).val * 8 + (I 4).val) / 8 % 8 = (I 3).val; omega
    | ⟨4, _⟩ => show ((I 2).val * 64 + (I 3).val * 8 + (I 4).val) % 8 = (I 4).val; omega
  refine Finset.sum_nbij' (fun I => pos I) (fun k => at5 b i k) ?_ ?_ ?_ ?_ ?_
  · intro I _; exact Finset.mem_univ _
  · intro k _
    refine Finset.mem_filter.2 ⟨Finset.mem_univ _, ?_⟩
    funext a
    match a with
    | ⟨0, _⟩ => rfl
    | ⟨1, _⟩ => rfl
  · intro I hI
    obtain ⟨e0, e1⟩ := hd I (Finset.mem_filter.1 hI).2
    exact hl I e0 e1
  · intro k _
    refine Fin.ext ?_
    show k.val / 64 * 64 + k.val / 8 % 8 * 8 + k.val % 8 = k.val
    omega
  · intro I hI
    obtain ⟨e0, e1⟩ := hd I (Finset.mem_filter.1 hI).2
    exact congrArg x (hl I e0 e1).symm

/-- The mean stage at (b, i): the sum of channel i of batch b over its 384 positions, from the zero word, divided by
    the word of 384. -/
theorem mean_at (x : (⟨S512x256x6x8x8, .f32⟩ : BufTy).Contents (Elt Ideal)) (b : Fin 512) (i : Fin 256) :
    val_main_v3 (F := Ideal) x (ix2 b i) = rowMean (Xof x b) i := by
  rw [val_main_v3_apply, val_main_v2_apply, val_main_cst_0_apply]
  show Ideal.div (Ideal.hostReduceAdd reducesTo_S512x256x6x8x8_S512x256_d2_3_4 x (Ideal.ofBits .f32 0x00000000#32) (ix2 b i)) w384 = _
  rw [reduce_at, Ideal.ofBits_zero_f32, zero_add]
  rfl

/-- The unsymmetrized term at (b, i, j): the row broadcast reads the mean of channel j, the column broadcast the mean of
    channel i. -/
theorem sig_at (x : (⟨S512x256x6x8x8, .f32⟩ : BufTy).Contents (Elt Ideal)) (b : Fin 512) (i j : Fin 256) :
    val_main_v22 (F := Ideal) x (ix3 b i j) = sigR (rowMean (Xof x b)) i j := by
  have e6 : idx_main_v4 (idx_main_v6 (ix3 b i j)) = ix2 b j := funext fun a => by
    match a with
    | ⟨0, _⟩ => rfl
    | ⟨1, _⟩ => rfl
  have e7 : idx_main_v5 (idx_main_v7 (ix3 b i j)) = ix2 b i := funext fun a => by
    match a with
    | ⟨0, _⟩ => rfl
    | ⟨1, _⟩ => rfl
  rw [val_main_v22_apply, val_main_v21_apply, val_main_cst_5_apply, val_main_v20_apply, val_main_v19_apply,
    val_main_v18_apply, val_main_cst_4_apply, val_main_v17_apply, val_main_v16_apply, val_main_v15_apply,
    val_main_cst_3_apply, val_main_v14_apply, val_main_v13_apply, val_main_cst_2_apply, val_main_v12_apply,
    val_main_v11_apply, val_main_cst_1_apply, val_main_v10_apply, val_main_v9_apply, val_main_v8_apply,
    val_main_v6_apply, val_main_v4_apply, e6, val_main_v7_apply, val_main_v5_apply, e7, mean_at, mean_at]
  rfl

/-- The affinity at (b, i, j): the transpose reads the term at (b, j, i). -/
theorem aff_at (x : (⟨S512x256x6x8x8, .f32⟩ : BufTy).Contents (Elt Ideal)) (b : Fin 512) (i j : Fin 256) :
    val_main_v26 (F := Ideal) x (ix3 b i j) = affR (rowMean (Xof x b)) i j := by
  have e23 : idx_main_v23 (ix3 b i j) = ix3 b j i := funext fun a => by
    match a with
    | ⟨0, _⟩ => rfl
    | ⟨1, _⟩ => rfl
    | ⟨2, _⟩ => rfl
  rw [val_main_v26_apply, val_main_v25_apply, val_main_cst_6_apply, val_main_v24_apply, val_main_v23_apply, e23,
    sig_at, sig_at]
  rfl

/-- The weighted adjacency at (b, i, j). -/
theorem prod_at (x : (⟨S512x256x6x8x8, .f32⟩ : BufTy).Contents (Elt Ideal)) (a : (⟨S256x256, .f32⟩ : BufTy).Contents (Elt Ideal)) (b : Fin 512) (i j : Fin 256) :
    val_main_v29 (F := Ideal) x a (ix3 b i j) = Aof a i j * affR (rowMean (Xof x b)) i j := by
  have e28 : idx_main_v27 (idx_main_v28 (ix3 b i j)) = ix2 i j := funext fun c => by
    match c with
    | ⟨0, _⟩ => rfl
    | ⟨1, _⟩ => rfl
  rw [val_main_v29_apply, val_main_v28_apply, val_main_v27_apply, e28, aff_at]
  rfl

/-- The contraction at (b, i, k): the sum over channels j of the weighted adjacency times the feature of channel j at
    position k. -/
theorem dot_at (x : (⟨S512x256x6x8x8, .f32⟩ : BufTy).Contents (Elt Ideal)) (a : (⟨S256x256, .f32⟩ : BufTy).Contents (Elt Ideal)) (b : Fin 512) (i : Fin 256) (k : Fin 384) :
    val_main_v30 (F := Ideal) x a (ix3 b i k)
      = ∑ j : Fin 256, (Aof a i j * affR (rowMean (Xof x b)) i j) * Xof x b j k := by
  rw [val_main_v30_apply]
  refine Finset.sum_congr rfl fun j _ => ?_
  have el : lidx_main_v30 (ix3 b i k) j = ix3 b i j := funext fun c => by
    match c with
    | ⟨0, _⟩ => rfl
    | ⟨1, _⟩ => rfl
    | ⟨2, _⟩ => rfl
  have er : idx_main_v0 (ridx_main_v30 (ix3 b i k) j) = at5 b j k := funext fun c => Fin.ext (by
    have hb := b.isLt
    have hj := j.isLt
    have hk := k.isLt
    match c with
    | ⟨0, _⟩ => show ((b.val * 256 + j.val) * 384 + k.val) / 98304 = b.val; omega
    | ⟨1, _⟩ => show ((b.val * 256 + j.val) * 384 + k.val) / 384 % 256 = j.val; omega
    | ⟨2, _⟩ => show ((b.val * 256 + j.val) * 384 + k.val) / 64 % 6 = k.val / 64; omega
    | ⟨3, _⟩ => show ((b.val * 256 + j.val) * 384 + k.val) / 8 % 8 = k.val / 8 % 8; omega
    | ⟨4, _⟩ => show ((b.val * 256 + j.val) * 384 + k.val) % 8 = k.val % 8; omega)
  rw [el, prod_at, val_main_v0_apply, er]
  rfl

/-- The reference's result is the specification's array with the reference's affinity. -/
theorem ref_eq (x : (⟨S512x256x6x8x8, .f32⟩ : BufTy).Contents (Elt Ideal)) (a : (⟨S256x256, .f32⟩ : BufTy).Contents (Elt Ideal)) (p : (⟨S1x256x6x8x8, .f32⟩ : BufTy).Contents (Elt Ideal)) :
    val_main_v34 (F := Ideal) x a p = GR x a p := by
  funext I
  obtain ⟨b, i, h, w, d, rfl⟩ : ∃ (b : Fin 512) (i : Fin 256) (h : Fin 6) (w : Fin 8) (d : Fin 8), I = ix5 b i h w d :=
    ⟨I 0, I 1, I 2, I 3, I 4, eq_ix5 I⟩
  have hb := b.isLt
  have hi := i.isLt
  have hh := h.isLt
  have hw := w.isLt
  have hd := d.isLt
  have e31 : idx_main_v31 (ix5 b i h w d) = ix3 b i (pos (ix5 b i h w d)) := funext fun c => Fin.ext (by
    match c with
    | ⟨0, _⟩ => show ((((b.val * 256 + i.val) * 6 + h.val) * 8 + w.val) * 8 + d.val) / 98304 = b.val; omega
    | ⟨1, _⟩ => show ((((b.val * 256 + i.val) * 6 + h.val) * 8 + w.val) * 8 + d.val) / 384 % 256 = i.val; omega
    | ⟨2, _⟩ => show ((((b.val * 256 + i.val) * 6 + h.val) * 8 + w.val) * 8 + d.val) % 384 = h.val * 64 + w.val * 8 + d.val; omega)
  have e32 : idx_main_v32 (ix5 b i h w d) = at5 (0 : Fin 1) i (pos (ix5 b i h w d)) := funext fun c => Fin.ext (by
    match c with
    | ⟨0, _⟩ => rfl
    | ⟨1, _⟩ => rfl
    | ⟨2, _⟩ => show h.val = (h.val * 64 + w.val * 8 + d.val) / 64; omega
    | ⟨3, _⟩ => show w.val = (h.val * 64 + w.val * 8 + d.val) / 8 % 8; omega
    | ⟨4, _⟩ => show d.val = (h.val * 64 + w.val * 8 + d.val) % 8; omega)
  rw [val_main_v34_apply, val_main_call0_v0_apply, val_main_call0_cst_apply, val_main_v33_apply, val_main_v32_apply,
    e32, val_main_v31_apply, e31, dot_at]
  rfl

end Cert.ReferenceIdeal.RefRead

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.LibLogisticTanh.lean ====
/-
  The logistic function and the hyperbolic tangent, on the reals and their inclusion in the extended reals — each fact
  stated once, over the library alone.

    * `ofBits_half_f32`, `ofBits_two_f32` (`ofBits_two_f32_coe`), `ofBits_384_f32` (`ofBits_384_f32_coe`): the 32-bit
      words 0x3F000000, 0x40000000 and 0x43C00000 are the numbers 1/2, 2 and 384.
    * `logistic_sub_half`: 1 / (1 + exp (-d)) - 1/2 = tanh (d / 2) / 2.
    * `termR`, `termR_eq`: the term | |1 / (1 + exp (-d)) - 1/2| - 1/2 | * 2, each absolute value written as a
      maximum max t (-t), is 1 - |tanh (d / 2)|, because |tanh| < 1.
    * `real_law`: the mean of that term at b - a and at a - b is 1 - max t (-t) with t = tanh ((b - a) / 2): the
      hyperbolic tangent is odd, so the two terms are equal.
    * `coe_max`: the inclusion of the reals in the extended reals carries a maximum to the maximum.
-/
import Idealize.ShloMosaic.PureOps.Ideal

noncomputable section

namespace Cert.LibLogisticTanh

open Idealize.ShloMosaic

/-! ## Three constant words -/

/-- The word 0x3F000000 is 1/2. -/
theorem ofBits_half_f32 : Ideal.ofBits .f32 0x3F000000#32 = ((1 / 2 : ℝ) : EReal) := by
  simp [Ideal.ofBits, Ideal.ieee, -EReal.coe_mul]; norm_num

/-- The word 0x40000000 is the real 2. -/
theorem ofBits_two_f32_coe : Ideal.ofBits .f32 0x40000000#32 = ((2 : ℝ) : EReal) := by
  simp [Ideal.ofBits, Ideal.ieee, -EReal.coe_mul]; norm_num

/-- The word 0x40000000 is 2. -/
theorem ofBits_two_f32 : Ideal.ofBits .f32 0x40000000#32 = 2 := by rw [ofBits_two_f32_coe]; norm_cast

/-- The word 0x43C00000 is the real 384. -/
theorem ofBits_384_f32_coe : Ideal.ofBits .f32 0x43C00000#32 = ((384 : ℝ) : EReal) := by
  simp [Ideal.ofBits, Ideal.ieee, -EReal.coe_mul]; norm_num

/-- The word 0x43C00000 is 384. -/
theorem ofBits_384_f32 : Ideal.ofBits .f32 0x43C00000#32 = 384 := by rw [ofBits_384_f32_coe]; norm_cast

/-! ## The real identity -/

/-- The logistic function minus 1/2 is half the hyperbolic tangent of half the argument: with u = exp (d / 2) both
    sides are (u² - 1) / (2 (u² + 1)). -/
theorem logistic_sub_half (d : ℝ) :
    (1 + Real.exp (-d))⁻¹ - 1 / 2 = Real.tanh (d * (1 / 2)) * (1 / 2) := by
  have hu : 0 < Real.exp (d * (1 / 2)) := Real.exp_pos _
  have h1 : Real.exp (-(d * (1 / 2))) = (Real.exp (d * (1 / 2)))⁻¹ := Real.exp_neg _
  have h2 : Real.exp (-d) = (Real.exp (d * (1 / 2)))⁻¹ * (Real.exp (d * (1 / 2)))⁻¹ := by
    rw [← h1, ← Real.exp_add]; congr 1; ring
  rw [Real.tanh_eq_sinh_div_cosh, Real.sinh_eq, Real.cosh_eq, h1, h2]
  generalize Real.exp (d * (1 / 2)) = u at hu
  have hne : u ≠ 0 := hu.ne'
  have h3 : u * u + 1 ≠ 0 := by positivity
  have h4 : u ^ 2 + 1 ≠ 0 := by positivity
  field_simp
  ring

/-- The term | |sigma d - 1/2| - 1/2 | * 2 as a function of the real d, sigma d = 1 / (1 + exp (-d)), each absolute
    value written as a maximum. -/
def termR (d : ℝ) : ℝ :=
  max (max ((1 + Real.exp (-d))⁻¹ - 1 / 2) (-((1 + Real.exp (-d))⁻¹ - 1 / 2)) - 1 / 2)
      (-(max ((1 + Real.exp (-d))⁻¹ - 1 / 2) (-((1 + Real.exp (-d))⁻¹ - 1 / 2)) - 1 / 2))
    * 2

/-- The term is 1 - |tanh (d / 2)|: the inner absolute value is |tanh (d / 2)| / 2, at most 1/2. -/
theorem termR_eq (d : ℝ) : termR d = 1 - |Real.tanh (d * (1 / 2))| := by
  have hlt : |Real.tanh (d * (1 / 2))| < 1 :=
    abs_lt.mpr ⟨Real.neg_one_lt_tanh _, Real.tanh_lt_one _⟩
  unfold termR
  rw [logistic_sub_half, ← abs_eq_max_neg, ← abs_eq_max_neg, abs_mul, abs_of_pos (show (0 : ℝ) < 1 / 2 by norm_num),
    abs_of_nonpos (by linarith)]
  ring

/-- The mean of the term at b - a and at a - b is 1 - max t (-t), t = tanh ((b - a) / 2): exchanging a and b negates
    t and leaves its absolute value alone. -/
theorem real_law (a b : ℝ) :
    (termR (b - a) + termR (a - b)) * (1 / 2)
      = 1 - max (Real.tanh ((b - a) * (1 / 2))) (-Real.tanh ((b - a) * (1 / 2))) := by
  have hneg : (a - b) * (1 / 2) = -((b - a) * (1 / 2)) := by ring
  rw [termR_eq, termR_eq, hneg, Real.tanh_neg, abs_neg, ← abs_eq_max_neg]
  ring

/-! ## The inclusion of the reals -/

/-- The inclusion of the reals in the extended reals carries a maximum to the maximum: it is monotone. -/
theorem coe_max (x y : ℝ) : ((max x y : ℝ) : EReal) = max (x : EReal) (y : EReal) :=
  EReal.coe_strictMono.monotone.map_max

end Cert.LibLogisticTanh

end
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.Law.lean ====
/-
  The two affinities agree at real means, and the mean of a real row is real.

  For reals a, b put d = b - a and t = tanh (d / 2). The logistic function satisfies
  sigma d - 1/2 = t / 2, and |t| < 1, so | |sigma d - 1/2| - 1/2 | * 2 = 1 - |t|. Exchanging a and b negates d and t
  and leaves |t| alone, so the term and its transpose are equal, and their mean is 1 - |t| again. The real identity is
  the library file's; here the two affinities at real means are written as inclusions of reals.
-/
import proofs.«161549_j35270271435548_2_alg».proof.Proof.Spec
import proofs.«161549_j35270271435548_2_alg».proof.Proof.LibSpellings
import proofs.«161549_j35270271435548_2_alg».proof.Proof.LibLogisticTanh
import proofs.«161549_j35270271435548_2_alg».proof.Proof.LibRealEntries

noncomputable section

namespace Cert.Law

open Idealize.ShloMosaic Cert.Spec Cert.LibLogisticTanh

/-! ## The constant words -/

/-- The word 0x3F800000 is 1. -/
theorem word_one : wOne = 1 := Cert.LibSpellings.ofBits_one_f32

/-- The word 0x3F000000 is 1/2. -/
theorem word_half : wHalf = ((1 / 2 : ℝ) : EReal) := ofBits_half_f32

/-- The word 0x40000000 is the real 2. -/
theorem word_two_coe : wTwo = ((2 : ℝ) : EReal) := ofBits_two_f32_coe

/-- The word 0x43C00000 is the real 384. -/
theorem word_384_coe : w384 = ((384 : ℝ) : EReal) := ofBits_384_f32_coe

/-- The word 0x40000000 is 2. -/
theorem word_two : wTwo = 2 := ofBits_two_f32

/-- The word 0x43C00000 is 384. -/
theorem word_384 : w384 = 384 := ofBits_384_f32

/-- The word 0x00000000 is 0. -/
theorem word_zero : wZero = 0 := Ideal.ofBits_zero_f32

/-! ## From the extended reals to the reals -/

/-- The reference's term at real means is the real term of their difference. -/
theorem sigR_coe (c : Fin 256 → EReal) (i j : Fin 256) (a b : ℝ) (ha : c i = (a : EReal)) (hb : c j = (b : EReal)) :
    sigR c i j = ((termR (b - a) : ℝ) : EReal) := by
  have hl : Ideal.div 1 (1 + Ideal.exp (-((b : EReal) - (a : EReal))))
      = (((1 + Real.exp (-(b - a)))⁻¹ : ℝ) : EReal) := by
    rw [← EReal.coe_sub]; exact Ideal.logistic_coe (r := b - a)
  unfold sigR termR
  rw [ha, hb, word_one, word_half, word_two_coe, hl]
  simp only [coe_max, EReal.coe_mul, EReal.coe_sub, EReal.coe_neg]

/-- The kernel's affinity at real means, as a real. -/
theorem affK_coe (c : Fin 256 → EReal) (i j : Fin 256) (a b : ℝ) (ha : c i = (a : EReal)) (hb : c j = (b : EReal)) :
    affK c i j
      = ((1 - max (Real.tanh ((b - a) * (1 / 2))) (-Real.tanh ((b - a) * (1 / 2))) : ℝ) : EReal) := by
  have ht : Ideal.tanh (((b : EReal) - (a : EReal)) * ((1 / 2 : ℝ) : EReal))
      = ((Real.tanh ((b - a) * (1 / 2)) : ℝ) : EReal) := by
    rw [← EReal.coe_sub, ← EReal.coe_mul]; rfl
  unfold affK
  rw [ha, hb, word_one, word_half, ht, ← EReal.coe_one]
  simp only [coe_max, EReal.coe_sub, EReal.coe_neg]

/-- The reference's symmetrized affinity is the kernel's affinity, at real means. -/
theorem affR_eq_affK (c : Fin 256 → EReal) (hc : ∀ i, ∃ r : ℝ, c i = (r : EReal)) (i j : Fin 256) :
    Cert.Spec.affR c i j = Cert.Spec.affK c i j := by
  obtain ⟨a, ha⟩ := hc i
  obtain ⟨b, hb⟩ := hc j
  rw [affK_coe c i j a b ha hb, ← real_law a b]
  unfold affR
  rw [sigR_coe c i j a b ha hb, sigR_coe c j i b a hb ha, word_half, ← EReal.coe_add, ← EReal.coe_mul]

/-! ## The mean of a real row is real -/

/-- The mean of a row of reals is a real: a finite sum of reals divided by the nonzero real 384. -/
theorem rowMean_real (X : Fin 256 → Fin 384 → EReal) (hX : ∀ i k, ∃ r : ℝ, X i k = (r : EReal)) (i : Fin 256) :
    ∃ r : ℝ, Cert.Spec.rowMean X i = (r : EReal) := by
  obtain ⟨s, hs⟩ := Cert.LibRealEntries.sum_real Finset.univ (fun k => X i k) (fun k => hX i k)
  refine ⟨s * (1 / 384), ?_⟩
  unfold rowMean
  rw [hs, word_384_coe, Ideal.div_coe (by norm_num), EReal.coe_mul]

end Cert.Law

end
-- ==== Proof.Bridge.lean ====
/-
  With real features the reference's array is the kernel's array.

  The two arrays differ only in the affinity. Every entry of a batch's [256, 384] matrix is an entry of the feature
  array, hence real; so the batch's row means are real, and at real means the two affinities agree. The sums over the
  channels then have equal terms.
-/
import proofs.«161549_j35270271435548_2_alg».proof.Proof.Spec
import proofs.«161549_j35270271435548_2_alg».proof.Proof.Law

noncomputable section

namespace Cert.Bridge

open Idealize.ShloMosaic Cert.Spec

/-- With real features, the result array with the reference's affinity is the one with the kernel's affinity. -/
theorem GR_eq_GK (x : (⟨5, ![512, 256, 6, 8, 8]⟩ : Shape).Idx → EReal) (a : (⟨2, ![256, 256]⟩ : Shape).Idx → EReal) (p : (⟨5, ![1, 256, 6, 8, 8]⟩ : Shape).Idx → EReal)
    (hx : ∀ I, ∃ r : ℝ, x I = (r : EReal)) : Cert.Spec.GR x a p = Cert.Spec.GK x a p := by
  funext I
  -- the row means of the batch's matrix are real
  have hc : ∀ i, ∃ r : ℝ, rowMean (Xof x (I 0)) i = (r : EReal) :=
    fun i => Cert.Law.rowMean_real (Xof x (I 0)) (fun j k => hx (at5 (I 0) j k)) i
  -- so the two affinities are the same function
  have haff : affR (rowMean (Xof x (I 0))) = affK (rowMean (Xof x (I 0))) :=
    funext fun i => funext fun j => Cert.Law.affR_eq_affK _ hc i j
  unfold GR GK
  rw [haff]

end Cert.Bridge

end
-- ==== Proof.Finite.lean ====
/-
  Under the precondition every entry of the feature array is a real number.

  The precondition says that the conjunction of three tests is 1: for each argument array, the conjunction over all
  its entries of |entry| < +∞. A conjunction that is 1 has every conjunct 1, so each entry x of the feature array has
  max x (-x) < +∞. An extended real is -∞, a real, or +∞; at either infinity max x (-x) is +∞, so x is a real.
-/
import proofs.«161549_j35270271435548_2_alg».proof.Defs
import proofs.«161549_j35270271435548_2_alg».proof.Proof.Gen.Pre_finite_inputs
import proofs.«161549_j35270271435548_2_alg».proof.Proof.LibRealEntries
import Idealize.ShloMosaic.Lib.ReduceAll

noncomputable section

namespace Cert.Finite

open Idealize.ShloMosaic Idealize.SL.Sem

/-- The shape with no axes has one index. -/
instance : Subsingleton Cert.Pre_finite_inputs.S_.Idx := ⟨fun a b => funext fun d => d.elim0⟩

/-- Under the precondition every entry of the feature array is a real. -/
theorem x_real [hPre : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (I : Cert.KernelIdeal.S512x256x6x8x8.Idx) :
    ∃ r : ℝ, m ((c.tc : Thread Cert.KernelIdeal.nD Cert.KernelIdeal.τ).loc Cert.KernelIdeal.main_arg0) I = (r : EReal) := by
  -- the precondition at its one index: the conjunction of the three tests is 1
  have e := congrFun (h c) (fun d => d.elim0)
  dsimp only [Cert.Pre_finite_inputs.fn] at e
  -- so the first test, the conjunction over all entries of the feature array, is 1
  obtain ⟨e12, _⟩ := IntOp.andi_eq_one.1 e
  obtain ⟨e1, _⟩ := IntOp.andi_eq_one.1 e12
  -- so its conjunct at I is 1: |x I| < +∞
  have hx := Host.reduce_andi_all _ _ _ _ _ e1 I
  exact Cert.LibRealEntries.real_of_cmp _ hx

end Cert.Finite

end
-- ==== Proof.lean ====
/-
  The kernel and its reference compute one array, as extended reals.

  For each batch b of the [512, 256, 6, 8, 8] feature array, seen as a [256, 384] matrix X (channel, position), let c i be
  the mean of row i. Both programs form an affinity of channels i and j from the difference c j - c i, multiply it into
  the adjacency, apply the product to X, scale by the scale array and clamp at zero:

      result (b, i, k) = max ((sum over j of (A i j * affinity i j) * X j k) * P i k, 0).

  The kernel's affinity is 1 - |tanh ((c j - c i) / 2)|. The reference's is the mean of s i j and s j i, where
  s i j = 2 * | |sigma (c j - c i) - 1/2| - 1/2 | and sigma is the logistic function. Since sigma d - 1/2 = tanh (d / 2) / 2
  and |tanh| < 1, s i j = 1 - |tanh ((c j - c i) / 2)|, which is symmetric in i and j, so the two affinities agree
  wherever the means are real. The precondition makes every feature a real, hence every mean, so the two sums have equal
  terms: no rearrangement of a sum is needed, and the adjacency and the scale may be any extended reals.

  The kernel side: each grid point handles 32 batches by a loop of 32 trips, one batch each; the trips' stores tile the
  point's output block, the 16 blocks tile the output array, and the reshapes before and after the region read the
  arrays at the same row-major positions. The reference side: its operations read one at a time at an index, its mean
  over the three volume axes being the sum over the 384 positions of a channel.

  The idealization rewrote nothing, so the kernel's idealized program is its own text read at the extended reals.
-/
import proofs.«161549_j35270271435548_2_alg».proof.Defs
import proofs.«161549_j35270271435548_2_alg».proof.Proof.Gen.Kernel
import proofs.«161549_j35270271435548_2_alg».proof.Proof.Gen.Kernel.Skeleton
import proofs.«161549_j35270271435548_2_alg».proof.Proof.Gen.Kernel.Loops
import proofs.«161549_j35270271435548_2_alg».proof.Proof.Gen.Kernel.Launch
import proofs.«161549_j35270271435548_2_alg».proof.Proof.Gen.Kernel.Points
import proofs.«161549_j35270271435548_2_alg».proof.Proof.Gen.Kernel.Frame
import proofs.«161549_j35270271435548_2_alg».proof.Proof.Gen.KernelIdeal
import proofs.«161549_j35270271435548_2_alg».proof.Proof.Gen.KernelIdeal.Skeleton
import proofs.«161549_j35270271435548_2_alg».proof.Proof.Gen.KernelIdeal.Loops
import proofs.«161549_j35270271435548_2_alg».proof.Proof.Gen.KernelIdeal.Launch
import proofs.«161549_j35270271435548_2_alg».proof.Proof.Gen.KernelIdeal.Points
import proofs.«161549_j35270271435548_2_alg».proof.Proof.Gen.KernelIdeal.Frame
import proofs.«161549_j35270271435548_2_alg».proof.Proof.Gen.ReferenceIdeal
import proofs.«161549_j35270271435548_2_alg».proof.Proof.Gen.ReferenceIdeal.Run
import proofs.«161549_j35270271435548_2_alg».proof.Proof.Gen.ReferenceIdeal.Read
import proofs.«161549_j35270271435548_2_alg».proof.Proof.Gen.Pre_finite_inputs
import proofs.«161549_j35270271435548_2_alg».proof.Proof.KRun
import proofs.«161549_j35270271435548_2_alg».proof.Proof.RefRead
import proofs.«161549_j35270271435548_2_alg».proof.Proof.Bridge
import proofs.«161549_j35270271435548_2_alg».proof.Proof.Finite
import Idealize.ShloMosaic.Adequacy
import Idealize.ShloMosaic.Init

noncomputable section

namespace Cert.Proof

open Idealize.ShloMosaic Idealize.SL.Sem

/-- The kernel program runs and leaves its arguments as they were. -/
theorem frame_k : Cert.frame_Kernel := fun m ρ _ => Cert.Kernel.Gen.frame m ρ

/-- So does its idealized reading. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- Both programs end with the specification's array of the arguments: the kernel with its own affinity, the reference
    with the symmetrized logistic one, and the two are one array because the precondition makes every feature real. -/
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v34_eq _ _ _).trans
    ((Cert.ReferenceIdeal.RefRead.ref_eq _ _ _).trans
      (Cert.Bridge.GR_eq_GK _ _ _ (fun I => Cert.Finite.x_real m hpre c I)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
